-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S100000x10 : Shape := ⟨2, ![100000, 10]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg6 : FVec F S64 .f32) (main_arg7 : FVec F S64x10 .f32) (main_arg8 : FVec F S10 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x10 .f32 := Host.absf main_arg7
  let main_cst_8 : FVec F S_ .f32 := constant S_ .f32 0x7F800000#32
  let main_v25 : FVec F S64x10 .f32 := broadcastInDim S64x10 ![] bcast_S_S64x10 main_cst_8
  let main_v26 : IVec S64x10 1 := cmpf .olt main_v24 main_v25
  let main_c_9 : IVec S_ 1 := constantI S_ 1 1#1
  let main_v27 : IVec S_ 1 := (fun x v => Host.reduce IntOp.andi x v reducesTo_S64x10_S_d0_1 h_S_) main_v26 main_c_9
  let main_v28 : IVec S_ 1 := andi main_v23 main_v27
  let main_v29 : FVec F S10 .f32 := Host.absf main_arg8
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S100000x128 .f32) (main_arg1 : IVec S2x3200000 32) (main_arg2 : IVec S100000x10 1) (main_arg3 : FVec F S128x64 .f32) (main_arg4 : FVec F S64 .f32) (main_arg5 : FVec F S64x64 .f32) (main_arg6 : FVec F S64 .f32) (main_arg7 : FVec F S64x10 .f32) (main_arg8 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S100000x128 : Shape := ⟨2, ![100000, 128]⟩
abbrev S2x3200000 : Shape := ⟨2, ![2, 3200000]⟩
abbrev S100000x10 : Shape := ⟨2, ![100000, 10]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S10000x128 : Shape := ⟨2, ![10000, 128]⟩
abbrev S10000x64 : Shape := ⟨2, ![10000, 64]⟩
abbrev S3300000x64 : Shape := ⟨2, ![3300000, 64]⟩
abbrev S1x64 : Shape := ⟨2, ![1, 64]⟩
abbrev S1x10 : Shape := ⟨2, ![1, 10]⟩
abbrev S10000x10 : Shape := ⟨2, ![10000, 10]⟩
abbrev S1000000 : Shape := ⟨1, ![1000000]⟩

abbrev nBuf : Space → Nat
  | .hbm => 84
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S100000x10, .i1⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x10, .f32⟩
  | .hbm, ⟨8, _⟩ => ⟨S10, .f32⟩
  | .hbm, ⟨9, _⟩ => ⟨S100000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S1x3200000, .i32⟩
  | .hbm, ⟨14, _⟩ => ⟨S3200000, .i32⟩
  | .hbm, ⟨15, _⟩ => ⟨S3300000, .i32⟩
  | .hbm, ⟨16, _⟩ => ⟨S_, .f32⟩
  | .hbm, ⟨17, _⟩ => ⟨S3300000, .f32⟩
  | .hbm, ⟨18, _⟩ => ⟨S_, .f32⟩
  | .hbm, ⟨19, _⟩ => ⟨S100000, .f32⟩
  | .hbm, ⟨20, _⟩ => ⟨S3300000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S3300000, .i32⟩
  | .hbm, ⟨27, _⟩ => ⟨S3300000, .i1⟩
  | .hbm, ⟨28, _⟩ => ⟨S_, .i32⟩
  | .hbm, ⟨29, _⟩ => ⟨S3300000, .i32⟩
  | .hbm, ⟨30, _⟩ => ⟨S3300000, .i32⟩
  | .hbm, ⟨31, _⟩ => ⟨S3300000, .i32⟩
  | .hbm, ⟨32, _⟩ => ⟨S3300000x1, .i32⟩
  | .hbm, ⟨33, _⟩ => ⟨S3300000, .f32⟩
  | .hbm, ⟨34, _⟩ => ⟨S_, .i32⟩
  | .hbm, ⟨35, _⟩ => ⟨S3300000, .i32⟩
  | .hbm, ⟨36, _⟩ => ⟨S3300000, .i1⟩
  | .hbm, ⟨37, _⟩ => ⟨S_, .i32⟩
  | .hbm, ⟨38, _⟩ => ⟨S3300000, .i32⟩
  | .hbm, ⟨39, _⟩ => ⟨S3300000, .i32⟩
  | .hbm, ⟨40, _⟩ => ⟨S3300000, .i32⟩
  | .hbm, ⟨41, _⟩ => ⟨S3300000x1, .i32⟩
  | .hbm, ⟨42, _⟩ => ⟨S3300000, .f32⟩
  | .hbm, ⟨43, _⟩ => ⟨S3300000, .f32⟩
  | .hbm, ⟨44, _⟩ => ⟨S100000x64, .f32⟩
  | .hbm, ⟨45, _⟩ => ⟨S_, .i32⟩
  | .hbm, ⟨46, _⟩ => ⟨S3300000, .i32⟩
  | .hbm, ⟨47, _⟩ => ⟨S3300000, .i1⟩
  | .hbm, ⟨48, _⟩ => ⟨S_, .i32⟩
  | .hbm, ⟨49, _⟩ => ⟨S3300000, .i32⟩
  | .hbm, ⟨50, _⟩ => ⟨S3300000, .i32⟩
  | .hbm, ⟨51, _⟩ => ⟨S3300000, .i32⟩
  | .hbm, ⟨52, _⟩ => ⟨S3300000x1, .i32⟩
  | .hbm, ⟨53, _⟩ => ⟨S3300000x64, .f32⟩
  | .hbm, ⟨54, _⟩ => ⟨S3300000x1, .f32⟩
  | .hbm, ⟨55, _⟩ => ⟨S3300000x64, .f32⟩
  | .hbm, ⟨56, _⟩ => ⟨S3300000x64, .f32⟩
  | .hbm, ⟨57, _⟩ => ⟨S_, .f32⟩
  | .hbm, ⟨58, _⟩ => ⟨S100000x64, .f32⟩
  | .hbm, ⟨59, _⟩ => ⟨S3300000x1, .i32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S_, .i32⟩
  | .hbm, ⟨64, _⟩ => ⟨S3300000, .i32⟩
  | .hbm, ⟨65, _⟩ => ⟨S3300000, .i1⟩
  | .hbm, ⟨66, _⟩ => ⟨S_, .i32⟩
  | .hbm, ⟨67, _⟩ => ⟨S3300000, .i32⟩
  | .hbm, ⟨68, _⟩ => ⟨S3300000, .i32⟩
  | .hbm, ⟨69, _⟩ => ⟨S3300000, .i32⟩
  | .hbm, ⟨70, _⟩ => ⟨S3300000x1, .i32⟩
  | .hbm, ⟨71, _⟩ => ⟨S3300000x64, .f32⟩
  | .hbm, ⟨72, _⟩ => ⟨S3300000x1, .f32⟩
  | .hbm, ⟨73, _⟩ => ⟨S3300000x64, .f32⟩
  | .hbm, ⟨74, _⟩ => ⟨S3300000x64, .f32⟩
  | .hbm, ⟨75, _⟩ => ⟨S_, .f32⟩
  | .hbm, ⟨76, _⟩ => ⟨S100000x64, .f32⟩
  | .hbm, ⟨77, _⟩ => ⟨S3300000x1, .i32⟩
  | .hbm, ⟨78, _⟩ => ⟨S100000x64, .f32⟩
  | .hbm, ⟨79, _⟩ => ⟨S100000x10, .i32⟩
  | .hbm, ⟨80, _⟩ => ⟨S1x64, .f32⟩
  | .hbm, ⟨81, _⟩ => ⟨S1x10, .f32⟩
  | .hbm, ⟨82, _⟩ => ⟨S100000x10, .f32⟩
  | .hbm, ⟨83, _⟩ => ⟨S1000000, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S64x10, .f32⟩
  | .local _ .vmem, ⟨15, _⟩ => ⟨S1x10, .f32⟩
  | .local _ .vmem, ⟨16, _⟩ => ⟨S10000x10, .i32⟩
  | .local _ .vmem, ⟨17, _⟩ => ⟨S10000x10, .i32⟩
  | .local _ .vmem, ⟨18, _⟩ => ⟨S10000x10, .f32⟩
  | .local _ .vmem, ⟨19, _⟩ => ⟨S10000x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_8 : Ref sig .tc := ⟨.hbm, 63, rfl⟩
abbrev main_v44 : Ref sig .tc := ⟨.hbm, 64, rfl⟩
abbrev main_v45 : Ref sig .tc := ⟨.hbm, 65, rfl⟩
abbrev main_c_9 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc2_stg5_0 : Ref sig .tc := ⟨.vmem, 18, rfl⟩
abbrev cc2_stg5_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17
abbrev cc2_sem5_0 : DmaSem sig := 18
abbrev cc2_sem5_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x10 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x10 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x10 .i32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S10000x10 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  natLt_1_32 : 1 < 32
  shapeCasts_S10_S1x10 : S10.ShapeCasts S1x10
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S10000x10 : S1x10.Broadcasts S10000x10
  inb_S10000x10_S10000x10_0_0 : ∀ a, (![0, 0] : Fin 2 → Nat) a + S10000x10.size a ≤ S10000x10.size a
  h_S10000x10 : 0 < S10000x10.numel
  shapeCasts_S10000x10_S10000x10 : S10000x10.ShapeCasts S10000x10
  shapeCasts_S100000x10_S1000000 : S100000x10.ShapeCasts S1000000
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x64_S10000x64_1_0_0_1_n_n_wf : DotDims.WF S10000x128 S128x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S10000x64_S64x64_S10000x64_1_0_0_1_n_n_wf : DotDims.WF S10000x64 S64x64 S10000x64 [1] [0] [0] [1] [] []
  dot_S10000x64_S64x10_S10000x10_1_0_0_1_n_n_wf : DotDims.WF S10000x64 S64x10 S10000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x10.size a ≤ S64x10.size a
  hwx2_2 : ∀ i : grid2.Coords, EltTy.bits .f32 = 32 ∨ (Rect.block (s := S64x10) S64x10.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x10.size a ≤ S1x10.size a
  hwx2_3 : ∀ i : grid2.Coords, EltTy.bits .f32 = 32 ∨ (Rect.block (s := S1x10) S1x10.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x10.size a ≤ S100000x10.size a
  hwx2_4 : ∀ i : grid2.Coords, EltTy.bits .i32 = 32 ∨ (Rect.block (s := S100000x10) S10000x10.size (cc2_transform_4 i) (hinb2_4 i)).WholeWords (EltTy.packing .i32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x10.size a ≤ S100000x10.size a
  hwx2_5 : ∀ i : grid2.Coords, EltTy.bits .f32 = 32 ∨ (Rect.block (s := S100000x10) S10000x10.size (cc2_transform_5 i) (hinb2_5 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x10_S10000x10_1_0_0_1_n_n : DotDims S10000x64 S64x10 S10000x10 where
  lhsContracting := [1]
  rhsContracting := [0]
  lhsNonContracting := [0]
  rhsNonContracting := [1]
  lhsBatch := []
  rhsBatch := []
  wf := dot_S10000x64_S64x10_S10000x10_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v56) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S64x10.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S1x10.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v57) S10000x10.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v60) S10000x10.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S100000x10 : Shape := ⟨2, ![100000, 10]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S1x10 : Shape := ⟨2, ![1, 10]⟩
abbrev S1000000 : Shape := ⟨1, ![1000000]⟩

abbrev nBuf : Space → Nat
  | .hbm => 118
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S100000x10, .i1⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x10, .f32⟩
  | .hbm, ⟨8, _⟩ => ⟨S10, .f32⟩
  | .hbm, ⟨9, _⟩ => ⟨S100000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S1x3200000, .i32⟩
  | .hbm, ⟨14, _⟩ => ⟨S3200000, .i32⟩
  | .hbm, ⟨15, _⟩ => ⟨S3300000, .i32⟩
  | .hbm, ⟨16, _⟩ => ⟨S_, .f32⟩
  | .hbm, ⟨17, _⟩ => ⟨S3300000, .f32⟩
  | .hbm, ⟨18, _⟩ => ⟨S_, .f32⟩
  | .hbm, ⟨19, _⟩ => ⟨S100000, .f32⟩
  | .hbm, ⟨20, _⟩ => ⟨S3300000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x64, .f32⟩
  | .hbm, ⟨26, _⟩ => ⟨S_, .i32⟩
  | .hbm, ⟨27, _⟩ => ⟨S3300000, .i32⟩
  | .hbm, ⟨28, _⟩ => ⟨S3300000, .i1⟩
  | .hbm, ⟨29, _⟩ => ⟨S_, .i32⟩
  | .hbm, ⟨30, _⟩ => ⟨S3300000, .i32⟩
  | .hbm, ⟨31, _⟩ => ⟨S3300000, .i32⟩
  | .hbm, ⟨32, _⟩ => ⟨S3300000, .i32⟩
  | .hbm, ⟨33, _⟩ => ⟨S3300000x1, .i32⟩
  | .hbm, ⟨34, _⟩ => ⟨S3300000, .f32⟩
  | .hbm, ⟨35, _⟩ => ⟨S_, .i32⟩
  | .hbm, ⟨36, _⟩ => ⟨S3300000, .i32⟩
  | .hbm, ⟨37, _⟩ => ⟨S3300000, .i1⟩
  | .hbm, ⟨38, _⟩ => ⟨S_, .i32⟩
  | .hbm, ⟨39, _⟩ => ⟨S3300000, .i32⟩
  | .hbm, ⟨40, _⟩ => ⟨S3300000, .i32⟩
  | .hbm, ⟨41, _⟩ => ⟨S3300000, .i32⟩
  | .hbm, ⟨42, _⟩ => ⟨S3300000x1, .i32⟩
  | .hbm, ⟨43, _⟩ => ⟨S3300000, .f32⟩
  | .hbm, ⟨44, _⟩ => ⟨S3300000, .f32⟩
  | .hbm, ⟨45, _⟩ => ⟨S_, .i32⟩
  | .hbm, ⟨46, _⟩ => ⟨S3300000, .i32⟩
  | .hbm, ⟨47, _⟩ => ⟨S3300000, .i1⟩
  | .hbm, ⟨48, _⟩ => ⟨S_, .i32⟩
  | .hbm, ⟨49, _⟩ => ⟨S3300000, .i32⟩
  | .hbm, ⟨50, _⟩ => ⟨S3300000, .i32⟩
  | .hbm, ⟨51, _⟩ => ⟨S3300000, .i32⟩
  | .hbm, ⟨52, _⟩ => ⟨S3300000x1, .i32⟩
  | .hbm, ⟨53, _⟩ => ⟨S3300000x64, .f32⟩
  | .hbm, ⟨54, _⟩ => ⟨S3300000x1, .f32⟩
  | .hbm, ⟨55, _⟩ => ⟨S3300000x64, .f32⟩
  | .hbm, ⟨56, _⟩ => ⟨S3300000x64, .f32⟩
  | .hbm, ⟨57, _⟩ => ⟨S_, .f32⟩
  | .hbm, ⟨58, _⟩ => ⟨S100000x64, .f32⟩
  | .hbm, ⟨59, _⟩ => ⟨S3300000x1, .i32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S100000x64, .f32⟩
  | .hbm, ⟨64, _⟩ => ⟨S_, .f32⟩
  | .hbm, ⟨65, _⟩ => ⟨S100000x64, .f32⟩
  | .hbm, ⟨66, _⟩ => ⟨S100000x64, .f32⟩
  | .hbm, ⟨67, _⟩ => ⟨S100000x64, .f32⟩
  | .hbm, ⟨68, _⟩ => ⟨S_, .i32⟩
  | .hbm, ⟨69, _⟩ => ⟨S3300000, .i32⟩
  | .hbm, ⟨70, _⟩ => ⟨S3300000, .i1⟩
  | .hbm, ⟨71, _⟩ => ⟨S_, .i32⟩
  | .hbm, ⟨72, _⟩ => ⟨S3300000, .i32⟩
  | .hbm, ⟨73, _⟩ => ⟨S3300000, .i32⟩
  | .hbm, ⟨74, _⟩ => ⟨S3300000, .i32⟩
  | .hbm, ⟨75, _⟩ => ⟨S3300000x1, .i32⟩
  | .hbm, ⟨76, _⟩ => ⟨S3300000, .f32⟩
  | .hbm, ⟨77, _⟩ => ⟨S_, .i32⟩
  | .hbm, ⟨78, _⟩ => ⟨S3300000, .i32⟩
  | .hbm, ⟨79, _⟩ => ⟨S3300000, .i1⟩
  | .hbm, ⟨80, _⟩ => ⟨S_, .i32⟩
  | .hbm, ⟨81, _⟩ => ⟨S3300000, .i32⟩
  | .hbm, ⟨82, _⟩ => ⟨S3300000, .i32⟩
  | .hbm, ⟨83, _⟩ => ⟨S3300000, .i32⟩
  | .hbm, ⟨84, _⟩ => ⟨S3300000x1, .i32⟩
  | .hbm, ⟨85, _⟩ => ⟨S3300000, .f32⟩
  | .hbm, ⟨86, _⟩ => ⟨S3300000, .f32⟩
  | .hbm, ⟨87, _⟩ => ⟨S_, .i32⟩
  | .hbm, ⟨88, _⟩ => ⟨S3300000, .i32⟩
  | .hbm, ⟨89, _⟩ => ⟨S3300000, .i1⟩
  | .hbm, ⟨90, _⟩ => ⟨S_, .i32⟩
  | .hbm, ⟨91, _⟩ => ⟨S3300000, .i32⟩
  | .hbm, ⟨92, _⟩ => ⟨S3300000, .i32⟩
  | .hbm, ⟨93, _⟩ => ⟨S3300000, .i32⟩
  | .hbm, ⟨94, _⟩ => ⟨S3300000x1, .i32⟩
  | .hbm, ⟨95, _⟩ => ⟨S3300000x64, .f32⟩
  | .hbm, ⟨96, _⟩ => ⟨S3300000x1, .f32⟩
  | .hbm, ⟨97, _⟩ => ⟨S3300000x64, .f32⟩
  | .hbm, ⟨98, _⟩ => ⟨S3300000x64, .f32⟩
  | .hbm, ⟨99, _⟩ => ⟨S_, .f32⟩
  | .hbm, ⟨100, _⟩ => ⟨S100000x64, .f32⟩
  | .hbm, ⟨101, _⟩ => ⟨S3300000x1, .i32⟩
  | .hbm, ⟨102, _⟩ => ⟨S100000x64, .f32⟩
  | .hbm, ⟨103, _⟩ => ⟨S1x64, .f32⟩
  | .hbm, ⟨104, _⟩ => ⟨S100000x64, .f32⟩
  | .hbm, ⟨105, _⟩ => ⟨S100000x64, .f32⟩
  | .hbm, ⟨106, _⟩ => ⟨S_, .f32⟩
  | .hbm, ⟨107, _⟩ => ⟨S100000x64, .f32⟩
  | .hbm, ⟨108, _⟩ => ⟨S100000x64, .f32⟩
  | .hbm, ⟨109, _⟩ => ⟨S100000x10, .f32⟩
  | .hbm, ⟨110, _⟩ => ⟨S1x10, .f32⟩
  | .hbm, ⟨111, _⟩ => ⟨S100000x10, .f32⟩
  | .hbm, ⟨112, _⟩ => ⟨S100000x10, .f32⟩
  | .hbm, ⟨113, _⟩ => ⟨S1000000, .f32⟩
  | .hbm, ⟨114, _⟩ => ⟨S1000000, .i1⟩
  | .hbm, ⟨115, _⟩ => ⟨S_, .f32⟩
  | .hbm, ⟨116, _⟩ => ⟨S1000000, .f32⟩
  | .hbm, ⟨117, _⟩ => ⟨S1000000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_call0_cst : Ref sig .tc := ⟨.hbm, 64, rfl⟩
abbrev main_call0_v0 : Ref sig .tc := ⟨.hbm, 65, rfl⟩
abbrev main_v45 : Ref sig .tc := ⟨.hbm, 66, rfl⟩
abbrev main_v46 : Ref sig .tc := ⟨.hbm, 67, rfl⟩
abbrev main_c_8 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_10 : Ref sig .tc := ⟨.hbm, 77, rfl⟩
abbrev main_v54 : Ref sig .tc := ⟨.hbm, 78, rfl⟩
abbrev main_v55 : Ref sig .tc := ⟨.hbm, 79, rfl⟩
abbrev main_c_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_12 : Ref sig .tc := ⟨.hbm, 87, rfl⟩
abbrev main_v62 : Ref sig .tc := ⟨.hbm, 88, rfl⟩
abbrev main_v63 : Ref sig .tc := ⟨.hbm, 89, rfl⟩
abbrev main_c_13 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_14 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_call1_cst : Ref sig .tc := ⟨.hbm, 106, rfl⟩
abbrev main_call1_v0 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_15 : Ref sig .tc := ⟨.hbm, 115, rfl⟩
abbrev main_call2_v0 : Ref sig .tc := ⟨.hbm, 116, rfl⟩
abbrev main_v85 : Ref sig .tc := ⟨.hbm, 117, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  shapeCasts_S100000x10_S1000000 : S100000x10.ShapeCasts S1000000
  bcast_S_S1000000 : S_.BroadcastsInDim S1000000 (![] : Fin 0 → Fin S1000000.rank)
  scatter_S100000_S3300000x1_S3300000_n_0_0_1_wf : ScatterDims.WF S100000 S3300000x1 S3300000 [] [0] [0] 1
  dot_S100000x128_S128x64_S100000x64_1_0_0_1_n_n_wf : DotDims.WF S100000x128 S128x64 S100000x64 [1] [0] [0] [1] [] []
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []
  dot_S100000x64_S64x10_S100000x10_1_0_0_1_n_n_wf : DotDims.WF S100000x64 S64x10 S100000x10 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x10_S100000x10_1_0_0_1_n_n : DotDims S100000x64 S64x10 S100000x10 where
  lhsContracting := [1]
  rhsContracting := [0]
  lhsNonContracting := [0]
  rhsNonContracting := [1]
  lhsBatch := []
  rhsBatch := []
  wf := dot_S100000x64_S64x10_S100000x10_1_0_0_1_n_n_wf

class Facts : Prop extends Facts₀ where

variable [Facts]
-- ==== Proof.RunResult.lean ====
/-
  The idealized kernel's run with its result kept.

  The program is seven segments: four stretches of host operations and, between them, three launches of a row-blocked
  dense stage.  The contents of every buffer at each segment boundary are a fold from the launch memory: a stretch
  replaces the buffers its operations write, a launch replaces its output array by what its grid points write back and
  leaves every other buffer alone.  Every weakly fair execution terminates with each unscoped buffer at the last
  boundary's contents; read at the argument buffers that gives the frame, and read at the result buffer it gives the
  statement below: the result ends holding the last boundary's contents of the result buffer.
-/
import proofs.«117503_j20212116095331_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the implicit arguments of the several-segment run theorem are found by unifying its conclusion with this one, which
-- takes unfolding plain definitions in a metavariable's type
set_option backward.isDefEq.respectTransparency.types false in
/-- Every weakly fair execution of the program terminates, nothing faulting, with the result buffer at the last
    boundary's contents and the argument arrays as launched. -/
theorem run_result : θ_run defs (onTc (τ := τ) (main (F := F))) ⟨m, fun _ => 0, ρ⟩ (fun r => ∀ c : Dev nD,
      r.2.mem ((c.tc : Thread nD τ).loc main_v61) = W7 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v61 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c)⟩)

end Cert.KernelIdeal.Gen

end
-- ==== Proof.Spec.lean ====
/-
  The dense stages of a two-layer graph-convolution network with a masked head, as functions of whole arrays over
  the extended reals.

  Between the neighbourhood sums (which both programs compute by the same host operations) the network applies, to an
  array with one row per node, three row-wise stages:

    * a plain product                          h ↦ h · W;
    * a biased, rectified product              a ↦ max(a + b, 0) · W,   the bias a one-row array added to every row;
    * the head                                 a ↦ where(mask, max(a + b, 0) · W + c, fill),   bias and offset one-row
                                               arrays, the mask one bit per entry.

  Every entry of a stage's result depends on ONE row of the array it is applied to (and on the small operands), which
  is why a program may compute the stage a block of rows at a time.  Nothing here needs an entry to be finite: the
  stages are sums, products, maxima and a choice, written once, and both programs are shown to compute them.
-/
import Idealize.ShloMosaic.PureOps.Ideal
import Idealize.ShloMosaic.Lib.ValueIdx

noncomputable section

namespace Cert.GcnSpec

open Idealize.ShloMosaic Idealize.ShloMosaic.ValueIdx

variable {A K B : Nat}

/-- The product of an `[A, K]` array and a `[K, B]` array: entry `(p, c)` is `Σ_k l (p, k) · r (k, c)`. -/
def mm (l : (⟨2, ![A, K]⟩ : Shape).Idx → EReal) (r : (⟨2, ![K, B]⟩ : Shape).Idx → EReal) :
    (⟨2, ![A, B]⟩ : Shape).Idx → EReal :=
  fun i => ∑ k : Fin K, l (ix2 (n0 := A) (i 0) k) * r (ix2 (n1 := B) k (i 1))

theorem mm_apply (l : (⟨2, ![A, K]⟩ : Shape).Idx → EReal) (r : (⟨2, ![K, B]⟩ : Shape).Idx → EReal) (p : Fin A) (c : Fin B) :
    mm l r (ix2 p c) = ∑ k : Fin K, l (ix2 p k) * r (ix2 k c) := rfl

/-- A one-row bias added to every row, then the maximum with zero: entry `(p, k)` is `max (a (p, k) + b (0, k)) 0`. -/
def relu1 (a : (⟨2, ![A, K]⟩ : Shape).Idx → EReal) (b : (⟨2, ![1, K]⟩ : Shape).Idx → EReal) :
    (⟨2, ![A, K]⟩ : Shape).Idx → EReal :=
  fun i => max (a i + b (ix2 (0 : Fin 1) (n1 := K) (i 1))) 0

theorem relu1_apply (a : (⟨2, ![A, K]⟩ : Shape).Idx → EReal) (b : (⟨2, ![1, K]⟩ : Shape).Idx → EReal) (p : Fin A) (k : Fin K) :
    relu1 a b (ix2 p k) = max (a (ix2 p k) + b (ix2 (0 : Fin 1) k)) 0 := rfl

/-- The head: where the mask bit is set, the rectified biased rows times the weights plus a one-row offset; elsewhere
    the fill value. -/
def head (a : (⟨2, ![A, K]⟩ : Shape).Idx → EReal) (b : (⟨2, ![1, K]⟩ : Shape).Idx → EReal)
    (w : (⟨2, ![K, B]⟩ : Shape).Idx → EReal) (o : (⟨2, ![1, B]⟩ : Shape).Idx → EReal)
    (mask : (⟨2, ![A, B]⟩ : Shape).Idx → BitVec 1) (fill : EReal) : (⟨2, ![A, B]⟩ : Shape).Idx → EReal :=
  fun i => Scalar.select (mask i) (mm (relu1 a b) w i + o (ix2 (0 : Fin 1) (n1 := B) (i 1))) fill

theorem head_apply (a : (⟨2, ![A, K]⟩ : Shape).Idx → EReal) (b : (⟨2, ![1, K]⟩ : Shape).Idx → EReal)
    (w : (⟨2, ![K, B]⟩ : Shape).Idx → EReal) (o : (⟨2, ![1, B]⟩ : Shape).Idx → EReal)
    (mask : (⟨2, ![A, B]⟩ : Shape).Idx → BitVec 1) (fill : EReal) (p : Fin A) (c : Fin B) :
    head a b w o mask fill (ix2 p c)
      = Scalar.select (mask (ix2 p c)) ((∑ k : Fin K, max (a (ix2 p k) + b (ix2 (0 : Fin 1) k)) 0 * w (ix2 k c)) + o (ix2 (0 : Fin 1) c)) fill := rfl

/-- A one-bit word widened to 32 bits is nonzero exactly when the bit is set. -/
theorem ne_zero_of_widened (b : BitVec 1) : IntOp.cmpi .ne (b.setWidth 32) 0#32 = b := by
  revert b; decide

end Cert.GcnSpec

end
-- ==== Proof.LibPlainDot.lean ====
/-
  A plain matrix product read at an entry.

  A contraction whose dimension numbers say "the second axis of an [A, K] operand against the first axis of a [K, B]
  operand, no batch axis, result [A, B]" reads its left operand at (row of the result, k) and its right operand at
  (k, column of the result), `k` ranging over the one contracted axis.  So the sum over the contraction index of the
  operands' products, at result entry (p, c), is `Σ_{k < K} l (p, k) · r (k, c)`; a `tpu.matmul` into the zero splat
  is exactly that sum at the ideal values.  Generic in A, K, B and in the record: the hypotheses are the record's six lists.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product `[A, K] × [K, B] → [A, B]`. -/
structure Plain {A K B : Nat} (D : DotDims ⟨2, ![A, K]⟩ ⟨2, ![K, B]⟩ ⟨2, ![A, B]⟩) : Prop where
  lc : D.lhsContracting = [1]
  rc : D.rhsContracting = [0]
  ln : D.lhsNonContracting = [0]
  rn : D.rhsNonContracting = [1]
  lb : D.lhsBatch = []
  rb : D.rhsBatch = []

variable {A K B : Nat} {D : DotDims ⟨2, ![A, K]⟩ ⟨2, ![K, B]⟩ ⟨2, ![A, B]⟩}

/-- One axis is contracted. -/
theorem Plain.rank (h : Plain D) : D.contr.rank = 1 := by rw [D.rank_contr, h.lc]; rfl

/-- Its extent is `K`. -/
theorem Plain.size (h : Plain D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Plain.lhs0 (h : Plain D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Plain.lhs1 (h : Plain D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the contraction position … -/
theorem Plain.rhs0 (h : Plain D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Plain.rhs1 (h : Plain D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (p, k) · r (k, c)`. -/
theorem Plain.sum_eq (h : Plain D) (l : (⟨2, ![A, K]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 p k) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Plain.matmul_zero_apply (h : Plain D) (prec : Option ContractPrecision)
    (l : FVec Ideal ⟨2, ![A, K]⟩ .f32) (r : FVec Ideal ⟨2, ![K, B]⟩ .f32) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

/-- A host `dot_general` of such dimension numbers, at the ideal values, read at `(p, c)`. -/
theorem Plain.dotGeneral_apply (h : Plain D) (prec : Option ContractPrecision) (sched : HostSchedule)
    (l : FVec Ideal ⟨2, ![A, K]⟩ .f32) (r : FVec Ideal ⟨2, ![K, B]⟩ .f32) (p : Fin A) (c : Fin B) :
    FloatOps.dotGeneral D prec sched l r (ix2 p c) = ∑ k : Fin K, l (ix2 p k) * r (ix2 k c) :=
  (Ideal.dotGeneral_apply D prec sched l r (ix2 p c)).trans (h.sum_eq l r p c)

end Cert.LibPlainDot

end
-- ==== Proof.LibPlainDotFormats.lean ====
/-
  A plain matrix product `[A, K] × [K, B] → [A, B]` into the zero accumulator read at an entry, for operands of ANY
  float formats: over the extended reals a format only names the set the entries came from, so the sum
  `Σ_{k < K} l (p, k) · r (k, c)` is the same whatever the two formats are.
-/
import proofs.«117503_j20212116095331_1_alg».proof.Proof.LibPlainDot

noncomputable section

namespace Cert.LibPlainDot

open Idealize.ShloMosaic Idealize.ShloMosaic.ValueIdx

variable {A K B : Nat} {D : DotDims ⟨2, ![A, K]⟩ ⟨2, ![K, B]⟩ ⟨2, ![A, B]⟩}

/-- A `tpu.matmul` of plain dimension numbers into the zero accumulator, at the ideal values, read at `(p, c)`,
    whatever the operands' formats. -/
theorem Plain.matmul_zero_apply_formats (h : Plain D) (prec : Option ContractPrecision) {φ₁ φ₂ : FTy}
    (l : FVec Ideal ⟨2, ![A, K]⟩ φ₁) (r : FVec Ideal ⟨2, ![K, B]⟩ φ₂) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

end Cert.LibPlainDot

end
-- ==== Proof.Region0.lean ====
/-
  The first launch: the projection h ↦ h · W, ten blocks of 10000 rows.

  At grid point t the body loads rows 10000·t … 10000·t + 9999 of the [100000, 128] array and the whole [128, 64]
  weight array, multiplies them (the change of format before the product is the identity on the extended reals, and
  the product accumulates into zero), and writes the [10000, 64] result back as rows 10000·t … of the output.  Entry
  (p, q) of the block is Σ_k x (10000·t + p, k) · W (k, q): the same sum as entry (10000·t + p, q) of the whole
  product.  The ten blocks tile the output (row r lies in block r / 10000), so after the launch the output array is
  the whole product of the arrays the launch found.
-/
import proofs.«117503_j20212116095331_1_alg».proof.Proof.Gen.KernelIdeal.Frame
import proofs.«117503_j20212116095331_1_alg».proof.Proof.Spec
import proofs.«117503_j20212116095331_1_alg».proof.Proof.LibPlainDotFormats
import Idealize.ShloMosaic.Lib.Pipeline.Value

set_option maxRecDepth 16384

noncomputable section

namespace Cert.KernelIdeal.Stage0

open Idealize.ShloMosaic Idealize.ShloMosaic.TcCoe Idealize.ShloMosaic.ValueIdx Idealize.SL.Sem
open Idealize.ShloMosaic.Pipeline (Dat)
open Cert.KernelIdeal Cert.KernelIdeal.Gen

-- the buffer contents the launch finds: a parameter
variable (V : (c : Dev nD) → (b : Ref sig .tc) → Buf (Elt Ideal) ((c : Thread nD τ).loc b))

theorem hz : (![0, 0] : Fin 2 → Nat) = fun _ => 0 := funext fun a => by fin_cases a <;> rfl

/-- The body's contraction is a plain product [10000, 128] × [128, 64]. -/
theorem plain : LibPlainDot.Plain dot_S10000x128_S128x64_S10000x64_1_0_0_1_n_n := ⟨rfl, rfl, rfl, rfl, rfl, rfl⟩

/-- The stored value at entry (p, q): the sum over k of the loaded blocks' products. -/
theorem pay_apply (x0 : Vec Ideal S10000x128 .f32) (x1 : Vec Ideal S128x64 .f32) (p : Fin 10000) (q : Fin 64) :
    k0_pay1 x0 x1 (ix2 p q) = ∑ k : Fin 128, x0 (ix2 p k) * x1 (ix2 k q) := by
  unfold k0_pay1
  exact plain.matmul_zero_apply_formats none (truncf .bf16 x0 bitsLt_bf16_f32) (truncf .bf16 x1 bitsLt_bf16_f32) p q

/-- A block whose rows are rows 10000·T … of `a0`, against the whole of `a3`: its entry is the whole product's entry
    10000·T rows further down. -/
theorem entry_eq (x0 : Vec Ideal S10000x128 .f32) (x1 : Vec Ideal S128x64 .f32)
    (a0 : S100000x128.Idx → EReal) (a3 : S128x64.Idx → EReal) (T : Nat) (hT : T < 10)
    (h0 : ∀ (p : Fin 10000) (k : Fin 128), x0 (ix2 p k) = a0 (ix2 (⟨T * 10000 + p.val, by omega⟩ : Fin 100000) k))
    (h1 : ∀ (k : Fin 128) (q : Fin 64), x1 (ix2 k q) = a3 (ix2 k q))
    (y : S10000x64.Idx) (i : S100000x64.Idx) (hi0 : (i 0).val = T * 10000 + (y 0).val) (hi1 : (i 1).val = (y 1).val) :
    k0_pay1 x0 x1 y = GcnSpec.mm a0 a3 i := by
  obtain ⟨p, q, rfl⟩ : ∃ (p : Fin 10000) (q : Fin 64), y = ix2 p q := ⟨y 0, y 1, eq_ix2 y⟩
  have hb : T * 10000 + p.val < 100000 := by omega
  obtain ⟨r, s, rfl⟩ : ∃ (r : Fin 100000) (s : Fin 64), i = ix2 r s := ⟨i 0, i 1, eq_ix2 i⟩
  obtain rfl : r = ⟨T * 10000 + p.val, hb⟩ := Fin.ext hi0
  obtain rfl : s = q := Fin.ext hi1
  rw [pay_apply, GcnSpec.mm_apply]
  exact Finset.sum_congr rfl fun k _ => by rw [h0, h1]

/-- The printed index maps, decided over the grid: the row-blocked windows sit at block (t, 0), the weights at (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product of the arrays the launch found. -/
theorem flushed_eq (c : Dev nD) (t : Fin cfg0.N) :
    (dat0 V c).flushed 2 t
      = ((cfg0.win 2).blk t).view.read (Elt Ideal) (GcnSpec.mm (V c main_arg0 : S100000x128.Idx → EReal) (V c main_arg3 : S128x64.Idx → EReal)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  obtain ⟨e00, e01, e10, e11, e20, e21⟩ := idx_facts t
  have ht : t.val < 10 := t.isLt
  funext j
  show k0_pay1 (iblk0 V c 0 t) (iblk0 V c 1 t) j
    = GcnSpec.mm (V c main_arg0 : S100000x128.Idx → EReal) (V c main_arg3 : S128x64.Idx → EReal) (((cfg0.win 2).blk t).view.emb j)
  refine entry_eq (iblk0 V c 0 t) (iblk0 V c 1 t) (V c main_arg0) (V c main_arg3) t.val ht ?_ ?_ j (((cfg0.win 2).blk t).view.emb j) ?_ ?_
  · intro p k
    show V c main_arg0 (((cfg0.win 0).blk t).view.emb (ix2 p k)) = V c main_arg0 _
    refine congrArg (V c main_arg0) ?_
    funext a; apply Fin.ext
    match a with
    | ⟨0, _⟩ => show win0_0.index t (0 : Fin 2) * 10000 + 1 * p.val = t.val * 10000 + p.val; omega
    | ⟨1, _⟩ => show win0_0.index t (1 : Fin 2) * 128 + 1 * k.val = k.val; omega
  · intro k q
    show V c main_arg3 (((cfg0.win 1).blk t).view.emb (ix2 k q)) = V c main_arg3 _
    refine congrArg (V c main_arg3) ?_
    funext a; apply Fin.ext
    match a with
    | ⟨0, _⟩ => show win0_1.index t (0 : Fin 2) * 128 + 1 * k.val = k.val; omega
    | ⟨1, _⟩ => show win0_1.index t (1 : Fin 2) * 64 + 1 * q.val = q.val; omega
  · show win0_2.index t (0 : Fin 2) * 10000 + 1 * (j 0).val = t.val * 10000 + (j 0).val; omega
  · show win0_2.index t (1 : Fin 2) * 64 + 1 * (j 1).val = (j 1).val; omega

/-- An index of the output array is in point `t`'s block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v28).slice (win0_2.rect t)).set ↔ _
  rw [View.set_slice_whole, Rect.mem_set_unit]
  exact Iff.rfl

/-- Every index of the output array lies in some point's block: row r in block r / 10000. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  let t : Fin cfg0.N := ⟨(i 0).val / 10000, by show (i 0).val / 10000 < 10; omega⟩
  obtain ⟨-, -, -, -, e20, e21⟩ := idx_facts t
  have htv : t.val = (i 0).val / 10000 := rfl
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After the launch the output array is the whole product of the arrays the launch found. -/
theorem array_eq (c : Dev nD) :
    (dat0 V c).arrAt 2 cfg0.N = GcnSpec.mm (V c main_arg0 : S100000x128.Idx → EReal) (V c main_arg3 : S128x64.Idx → EReal) :=
  (dat0 V c).arrAt_eq_of_cover 2 _ (fun t _ => flushed_eq V c t) cover

end Cert.KernelIdeal.Stage0

end
-- ==== Proof.LibRowLayout.lean ====
/-
  Two layout facts about one-row arrays, each read at an entry given by its coordinates: a one-row array `[1, b]`
  spread over the rows of an `[a, b]` array, and a vector `[b]` viewed as a one-row array `[1, b]`.  They hold for
  any extents and for entries of any type.  (The companions for one-column arrays are the keepdims facts.)
-/
import Idealize.ShloMosaic.Lib.Pipeline.Value
import Idealize.ShloMosaic.Lib.ValueIdx

noncomputable section

namespace Cert.LibRowLayout

open Idealize.ShloMosaic Idealize.ShloMosaic.ValueIdx

/-- A `[1, b]` row spread over `a` rows reads, at `(i, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

/-- A `[b]` vector viewed as a one-row array reads, at `(u, j)`, the vector's entry `j`: both sit at row-major position `j`. -/
theorem shapeCast_b_1b_apply {α : Type} {b : ℕ} (x : (⟨1, ![b]⟩ : Shape).Idx → α) (h : (⟨1, ![b]⟩ : Shape).ShapeCasts ⟨2, ![1, b]⟩)
    (u : Fin 1) (j : Fin b) : shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu, Nat.zero_mul, Nat.zero_add])

end Cert.LibRowLayout

end
-- ==== Proof.Region1.lean ====
/-
  The second launch: a ↦ max(a + b, 0) · W, ten blocks of 10000 rows.

  At grid point t the body loads rows 10000·t … of the [100000, 64] array, the one-row bias [1, 64] and the whole
  [64, 64] weight array; it spreads the bias over the block's rows, adds, takes the maximum with zero, and multiplies
  by the weights (format changes are the identity on the extended reals; the product accumulates into zero).  Entry
  (p, q) of the block is Σ_k max(a (10000·t + p, k) + b (0, k), 0) · W (k, q), which is entry (10000·t + p, q) of the
  stage applied to the whole array; the ten blocks tile the output.
-/
import proofs.«117503_j20212116095331_1_alg».proof.Proof.Gen.KernelIdeal.Frame
import proofs.«117503_j20212116095331_1_alg».proof.Proof.Spec
import proofs.«117503_j20212116095331_1_alg».proof.Proof.LibPlainDotFormats
import proofs.«117503_j20212116095331_1_alg».proof.Proof.LibRowLayout
import Idealize.ShloMosaic.Lib.Pipeline.Value

set_option maxRecDepth 16384

noncomputable section

namespace Cert.KernelIdeal.Stage1

open Idealize.ShloMosaic Idealize.ShloMosaic.TcCoe Idealize.ShloMosaic.ValueIdx Idealize.SL.Sem
open Idealize.ShloMosaic.Pipeline (Dat)
open Cert.KernelIdeal Cert.KernelIdeal.Gen

-- the buffer contents the launch finds: a parameter
variable (V : (c : Dev nD) → (b : Ref sig .tc) → Buf (Elt Ideal) ((c : Thread nD τ).loc b))

theorem hz : (![0, 0] : Fin 2 → Nat) = fun _ => 0 := funext fun a => by fin_cases a <;> rfl

/-- The zero word is the number zero. -/
theorem zero_word : Scalar.ofBits (F := Ideal) .f32 0x00000000#32 = 0 :=
  (show _ = Ideal.ofBits .f32 0x00000000#32 from rfl).trans Ideal.ofBits_zero_f32

/-- The body's contraction is a plain product [10000, 64] × [64, 64]. -/
theorem plain : LibPlainDot.Plain dot_S10000x64_S64x64_S10000x64_1_0_0_1_n_n := ⟨rfl, rfl, rfl, rfl, rfl, rfl⟩

/-- The stored value at entry (p, q). -/
theorem pay_apply (b : Vec Ideal S1x64 .f32) (x : Vec Ideal S10000x64 .f32) (w : Vec Ideal S64x64 .f32) (p : Fin 10000) (q : Fin 64) :
    k1_pay1 b x w (ix2 p q) = ∑ k : Fin 64, max (x (ix2 p k) + b (ix2 (0 : Fin 1) k)) 0 * w (ix2 k q) := by
  unfold k1_pay1
  refine (plain.matmul_zero_apply_formats none _ _ p q).trans ?_
  refine Finset.sum_congr rfl fun k _ => ?_
  rw [truncf_apply, truncf_apply, maximumf_apply, addf_apply, broadcast_apply, shapeCast_self, shapeCast_self, shapeCast_self,
    LibRowLayout.broadcastTo_1b_ab_apply, zero_word]

/-- A block whose rows are rows 10000·T … of `a`, with the bias row and the weights whole: its entry is the whole
    stage's entry 10000·T rows further down. -/
theorem entry_eq (xb : Vec Ideal S1x64 .f32) (x : Vec Ideal S10000x64 .f32) (xw : Vec Ideal S64x64 .f32)
    (a : S100000x64.Idx → EReal) (b : S1x64.Idx → EReal) (w : S64x64.Idx → EReal) (T : Nat) (hT : T < 10)
    (h0 : ∀ (p : Fin 10000) (k : Fin 64), x (ix2 p k) = a (ix2 (⟨T * 10000 + p.val, by omega⟩ : Fin 100000) k))
    (h1 : ∀ (k : Fin 64), xb (ix2 (0 : Fin 1) k) = b (ix2 (0 : Fin 1) k))
    (h2 : ∀ (k : Fin 64) (q : Fin 64), xw (ix2 k q) = w (ix2 k q))
    (y : S10000x64.Idx) (i : S100000x64.Idx) (hi0 : (i 0).val = T * 10000 + (y 0).val) (hi1 : (i 1).val = (y 1).val) :
    k1_pay1 xb x xw y = GcnSpec.mm (GcnSpec.relu1 a b) w i := by
  obtain ⟨p, q, rfl⟩ : ∃ (p : Fin 10000) (q : Fin 64), y = ix2 p q := ⟨y 0, y 1, eq_ix2 y⟩
  have hb : T * 10000 + p.val < 100000 := by omega
  obtain ⟨r, s, rfl⟩ : ∃ (r : Fin 100000) (s : Fin 64), i = ix2 r s := ⟨i 0, i 1, eq_ix2 i⟩
  obtain rfl : r = ⟨T * 10000 + p.val, hb⟩ := Fin.ext hi0
  obtain rfl : s = q := Fin.ext hi1
  rw [pay_apply, GcnSpec.mm_apply]
  exact Finset.sum_congr rfl fun k _ => by rw [GcnSpec.relu1_apply, h0, h1, h2]

/-- The printed index maps, decided over the grid. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the stage applied to the arrays the launch found. -/
theorem flushed_eq (c : Dev nD) (t : Fin cfg1.N) :
    (dat1 V c).flushed 3 t
      = ((cfg1.win 3).blk t).view.read (Elt Ideal)
          (GcnSpec.mm (GcnSpec.relu1 (V c main_v41 : S100000x64.Idx → EReal) (V c main_v42 : S1x64.Idx → EReal)) (V c main_arg5 : S64x64.Idx → EReal)) := by
  show (cfg1.win 3).cut (grid1.coords t) ((dat1 V c).after 3 t) = _
  rw [after1_3]
  unfold out1_3
  rw [View.canon_unit_zero hz]
  simp only [View.ld_unit_zero (S := S10000x64) hz, View.ld_unit_zero (S := S1x64) hz, View.ld_unit_zero (S := S64x64) hz]
  obtain ⟨e00, e01, e10, e11, e20, e21, e30, e31⟩ := idx_facts t
  have ht : t.val < 10 := t.isLt
  funext j
  show k1_pay1 (iblk1 V c 1 t) (iblk1 V c 0 t) (iblk1 V c 2 t) j
    = GcnSpec.mm (GcnSpec.relu1 (V c main_v41 : S100000x64.Idx → EReal) (V c main_v42 : S1x64.Idx → EReal)) (V c main_arg5 : S64x64.Idx → EReal)
        (((cfg1.win 3).blk t).view.emb j)
  refine entry_eq (iblk1 V c 1 t) (iblk1 V c 0 t) (iblk1 V c 2 t) (V c main_v41) (V c main_v42) (V c main_arg5) t.val ht ?_ ?_ ?_ j
    (((cfg1.win 3).blk t).view.emb j) ?_ ?_
  · intro p k
    show V c main_v41 (((cfg1.win 0).blk t).view.emb (ix2 p k)) = V c main_v41 _
    refine congrArg (V c main_v41) ?_
    funext a; apply Fin.ext
    match a with
    | ⟨0, _⟩ => show win1_0.index t (0 : Fin 2) * 10000 + 1 * p.val = t.val * 10000 + p.val; omega
    | ⟨1, _⟩ => show win1_0.index t (1 : Fin 2) * 64 + 1 * k.val = k.val; omega
  · intro k
    show V c main_v42 (((cfg1.win 1).blk t).view.emb (ix2 (0 : Fin 1) k)) = V c main_v42 _
    refine congrArg (V c main_v42) ?_
    funext a; apply Fin.ext
    match a with
    | ⟨0, _⟩ => show win1_1.index t (0 : Fin 2) * 1 + 1 * 0 = 0; omega
    | ⟨1, _⟩ => show win1_1.index t (1 : Fin 2) * 64 + 1 * k.val = k.val; omega
  · intro k q
    show V c main_arg5 (((cfg1.win 2).blk t).view.emb (ix2 k q)) = V c main_arg5 _
    refine congrArg (V c main_arg5) ?_
    funext a; apply Fin.ext
    match a with
    | ⟨0, _⟩ => show win1_2.index t (0 : Fin 2) * 64 + 1 * k.val = k.val; omega
    | ⟨1, _⟩ => show win1_2.index t (1 : Fin 2) * 64 + 1 * q.val = q.val; omega
  · show win1_3.index t (0 : Fin 2) * 10000 + 1 * (j 0).val = t.val * 10000 + (j 0).val; omega
  · show win1_3.index t (1 : Fin 2) * 64 + 1 * (j 1).val = (j 1).val; omega

/-- An index of the output array is in point `t`'s block iff each coordinate is in the block's range on its axis. -/
theorem mem_blk (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v43).slice (win1_3.rect t)).set ↔ _
  rw [View.set_slice_whole, Rect.mem_set_unit]
  exact Iff.rfl

/-- Every index of the output array lies in some point's block: row r in block r / 10000. -/
theorem cover (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  let t : Fin cfg1.N := ⟨(i 0).val / 10000, by show (i 0).val / 10000 < 10; omega⟩
  obtain ⟨-, -, -, -, -, -, e30, e31⟩ := idx_facts t
  have htv : t.val = (i 0).val / 10000 := rfl
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

/-- After the launch the output array is the stage applied to the arrays the launch found. -/
theorem array_eq (c : Dev nD) :
    (dat1 V c).arrAt 3 cfg1.N
      = GcnSpec.mm (GcnSpec.relu1 (V c main_v41 : S100000x64.Idx → EReal) (V c main_v42 : S1x64.Idx → EReal)) (V c main_arg5 : S64x64.Idx → EReal) :=
  (dat1 V c).arrAt_eq_of_cover 3 _ (fun t _ => flushed_eq V c t) cover

end Cert.KernelIdeal.Stage1

end
-- ==== Proof.Region2.lean ====
/-
  The third launch: the head a ↦ where(mask ≠ 0, max(a + b, 0) · W + o, fill), ten blocks of 10000 rows.

  At grid point t the body loads rows 10000·t … of the [100000, 64] array and of the [100000, 10] array of mask words,
  the one-row bias [1, 64], the whole [64, 10] weight array and the one-row offset [1, 10].  Entry (p, q) of the block
  is: if mask word (10000·t + p, q) is nonzero, Σ_k max(a (10000·t + p, k) + b (0, k), 0) · W (k, q) + o (0, q), and
  the fill word's value otherwise — entry (10000·t + p, q) of the head applied to the whole arrays, the mask bit being
  "the word is nonzero".  The fill word is the same on both sides of the certificate and is never evaluated.  The ten
  blocks tile the output.
-/
import proofs.«117503_j20212116095331_1_alg».proof.Proof.Gen.KernelIdeal.Frame
import proofs.«117503_j20212116095331_1_alg».proof.Proof.Spec
import proofs.«117503_j20212116095331_1_alg».proof.Proof.LibPlainDotFormats
import proofs.«117503_j20212116095331_1_alg».proof.Proof.LibRowLayout
import Idealize.ShloMosaic.Lib.Pipeline.Value

set_option maxRecDepth 16384

noncomputable section

namespace Cert.KernelIdeal.Stage2

open Idealize.ShloMosaic Idealize.ShloMosaic.TcCoe Idealize.ShloMosaic.ValueIdx Idealize.SL.Sem
open Idealize.ShloMosaic.Pipeline (Dat)
open Cert.KernelIdeal Cert.KernelIdeal.Gen

-- the buffer contents the launch finds: a parameter
variable (V : (c : Dev nD) → (b : Ref sig .tc) → Buf (Elt Ideal) ((c : Thread nD τ).loc b))

theorem hz : (![0, 0] : Fin 2 → Nat) = fun _ => 0 := funext fun a => by fin_cases a <;> rfl

/-- The zero word is the number zero. -/
theorem zero_word : Scalar.ofBits (F := Ideal) .f32 0x00000000#32 = 0 :=
  (show _ = Ideal.ofBits .f32 0x00000000#32 from rfl).trans Ideal.ofBits_zero_f32

/-- The value stored where the mask is off: the word both programs use, kept as a word. -/
abbrev fill : EReal := Scalar.ofBits (F := Ideal) .f32 0xFF7FFFFF#32

/-- The mask bit of a word: it is nonzero. -/
abbrev bitOf (mk : S100000x10.Idx → BitVec 32) : S100000x10.Idx → BitVec 1 := fun i => IntOp.cmpi .ne (mk i) 0#32

/-- The body's contraction is a plain product [10000, 64] × [64, 10]. -/
theorem plain : LibPlainDot.Plain dot_S10000x64_S64x10_S10000x10_1_0_0_1_n_n := ⟨rfl, rfl, rfl, rfl, rfl, rfl⟩

/-- The product inside the body at entry (p, q). -/
theorem logits_apply (b : Vec Ideal S1x64 .f32) (x : Vec Ideal S10000x64 .f32) (w : Vec Ideal S64x10 .f32) (p : Fin 10000) (q : Fin 10) :
    matmul dot_S10000x64_S64x10_S10000x10_1_0_0_1_n_n none
        (truncf .bf16 (maximumf (addf (shapeCast S10000x64 x shapeCasts_S10000x64_S10000x64)
          (broadcastTo S10000x64 (shapeCast S1x64 (shapeCast S1x64 b shapeCasts_S1x64_S1x64) shapeCasts_S1x64_S1x64) broadcasts_S1x64_S10000x64))
          (broadcast S10000x64 (Scalar.ofBits (F := Ideal) .f32 0x00000000#32))) bitsLt_bf16_f32)
        (truncf .bf16 w bitsLt_bf16_f32) (constant S10000x10 .f32 0x00000000#32) (ix2 p q)
      = ∑ k : Fin 64, max (x (ix2 p k) + b (ix2 (0 : Fin 1) k)) 0 * w (ix2 k q) := by
  refine (plain.matmul_zero_apply_formats none _ _ p q).trans ?_
  refine Finset.sum_congr rfl fun k _ => ?_
  rw [truncf_apply, truncf_apply, maximumf_apply, addf_apply, broadcast_apply, shapeCast_self, shapeCast_self, shapeCast_self,
    LibRowLayout.broadcastTo_1b_ab_apply, zero_word]

/-- A choice between a value and a fixed alternative depends only on the bit and on the value. -/
theorem select_congr {α : Type} {c c' : BitVec 1} {a a' b : α} (hc : c = c') (ha : a = a') :
    Scalar.select c a b = Scalar.select c' a' b := by subst hc ha; rfl

/-- The stored value at entry (p, q). -/
theorem pay_apply (b : Vec Ideal S1x64 .f32) (x : Vec Ideal S10000x64 .f32) (w : Vec Ideal S64x10 .f32) (o : Vec Ideal S1x10 .f32)
    (mk : Vec Ideal S10000x10 .i32) (p : Fin 10000) (q : Fin 10) :
    k2_pay1 b x w o mk (ix2 p q)
      = Scalar.select (IntOp.cmpi .ne (mk (ix2 p q)) 0#32)
          ((∑ k : Fin 64, max (x (ix2 p k) + b (ix2 (0 : Fin 1) k)) 0 * w (ix2 k q)) + o (ix2 (0 : Fin 1) q)) fill := by
  unfold k2_pay1
  refine (select_apply _ _ _ _).trans (select_congr ?_ ?_)
  · rw [shapeCast_self]; rfl
  · refine (addf_apply _ _ _).trans ?_
    rw [logits_apply, shapeCast_self, shapeCast_self, LibRowLayout.broadcastTo_1b_ab_apply]

/-- A block whose rows are rows 10000·T … of `a` and of the mask words, the small operands whole: its entry is the
    whole head's entry 10000·T rows further down. -/
theorem entry_eq (xb : Vec Ideal S1x64 .f32) (x : Vec Ideal S10000x64 .f32) (xw : Vec Ideal S64x10 .f32) (xo : Vec Ideal S1x10 .f32)
    (xm : Vec Ideal S10000x10 .i32)
    (a : S100000x64.Idx → EReal) (b : S1x64.Idx → EReal) (w : S64x10.Idx → EReal) (o : S1x10.Idx → EReal)
    (mk : S100000x10.Idx → BitVec 32) (T : Nat) (hT : T < 10)
    (h0 : ∀ (p : Fin 10000) (k : Fin 64), x (ix2 p k) = a (ix2 (⟨T * 10000 + p.val, by omega⟩ : Fin 100000) k))
    (h1 : ∀ (k : Fin 64), xb (ix2 (0 : Fin 1) k) = b (ix2 (0 : Fin 1) k))
    (h2 : ∀ (k : Fin 64) (q : Fin 10), xw (ix2 k q) = w (ix2 k q))
    (h3 : ∀ (q : Fin 10), xo (ix2 (0 : Fin 1) q) = o (ix2 (0 : Fin 1) q))
    (h4 : ∀ (p : Fin 10000) (q : Fin 10), xm (ix2 p q) = mk (ix2 (⟨T * 10000 + p.val, by omega⟩ : Fin 100000) q))
    (y : S10000x10.Idx) (i : S100000x10.Idx) (hi0 : (i 0).val = T * 10000 + (y 0).val) (hi1 : (i 1).val = (y 1).val) :
    k2_pay1 xb x xw xo xm y = GcnSpec.head a b w o (bitOf mk) fill i := by
  obtain ⟨p, q, rfl⟩ : ∃ (p : Fin 10000) (q : Fin 10), y = ix2 p q := ⟨y 0, y 1, eq_ix2 y⟩
  have hb : T * 10000 + p.val < 100000 := by omega
  obtain ⟨r, s, rfl⟩ : ∃ (r : Fin 100000) (s : Fin 10), i = ix2 r s := ⟨i 0, i 1, eq_ix2 i⟩
  obtain rfl : r = ⟨T * 10000 + p.val, hb⟩ := Fin.ext hi0
  obtain rfl : s = q := Fin.ext hi1
  rw [pay_apply, GcnSpec.head_apply, h3, h4]
  refine select_congr rfl (congrArg (· + _) ?_)
  exact Finset.sum_congr rfl fun k _ => by rw [h0, h1, h2]

/-- The printed index maps, decided over the grid. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- What point `t` writes back is block `t` of the head applied to the arrays the launch found. -/
theorem flushed_eq (c : Dev nD) (t : Fin cfg2.N) :
    (dat2 V c).flushed 5 t
      = ((cfg2.win 5).blk t).view.read (Elt Ideal)
          (GcnSpec.head (V c main_v56 : S100000x64.Idx → EReal) (V c main_v58 : S1x64.Idx → EReal) (V c main_arg7 : S64x10.Idx → EReal)
            (V c main_v59 : S1x10.Idx → EReal) (bitOf (V c main_v57 : S100000x10.Idx → BitVec 32)) fill) := by
  show (cfg2.win 5).cut (grid2.coords t) ((dat2 V c).after 5 t) = _
  rw [after2_5]
  unfold out2_5
  rw [View.canon_unit_zero hz]
  simp only [View.ld_unit_zero (S := S10000x64) hz, View.ld_unit_zero (S := S1x64) hz, View.ld_unit_zero (S := S64x10) hz,
    View.ld_unit_zero (S := S1x10) hz, View.ld_unit_zero (S := S10000x10) hz]
  obtain ⟨e00, e01, e10, e11, e20, e21, e30, e31, e40, e41, e50, e51⟩ := idx_facts t
  have ht : t.val < 10 := t.isLt
  funext j
  show k2_pay1 (iblk2 V c 1 t) (iblk2 V c 0 t) (iblk2 V c 2 t) (iblk2 V c 3 t) (iblk2 V c 4 t) j
    = GcnSpec.head (V c main_v56 : S100000x64.Idx → EReal) (V c main_v58 : S1x64.Idx → EReal) (V c main_arg7 : S64x10.Idx → EReal)
        (V c main_v59 : S1x10.Idx → EReal) (bitOf (V c main_v57 : S100000x10.Idx → BitVec 32)) fill (((cfg2.win 5).blk t).view.emb j)
  refine entry_eq (iblk2 V c 1 t) (iblk2 V c 0 t) (iblk2 V c 2 t) (iblk2 V c 3 t) (iblk2 V c 4 t)
    (V c main_v56) (V c main_v58) (V c main_arg7) (V c main_v59) (V c main_v57) t.val ht ?_ ?_ ?_ ?_ ?_ j
    (((cfg2.win 5).blk t).view.emb j) ?_ ?_
  · intro p k
    show V c main_v56 (((cfg2.win 0).blk t).view.emb (ix2 p k)) = V c main_v56 _
    refine congrArg (V c main_v56) ?_
    funext a; apply Fin.ext
    match a with
    | ⟨0, _⟩ => show win2_0.index t (0 : Fin 2) * 10000 + 1 * p.val = t.val * 10000 + p.val; omega
    | ⟨1, _⟩ => show win2_0.index t (1 : Fin 2) * 64 + 1 * k.val = k.val; omega
  · intro k
    show V c main_v58 (((cfg2.win 1).blk t).view.emb (ix2 (0 : Fin 1) k)) = V c main_v58 _
    refine congrArg (V c main_v58) ?_
    funext a; apply Fin.ext
    match a with
    | ⟨0, _⟩ => show win2_1.index t (0 : Fin 2) * 1 + 1 * 0 = 0; omega
    | ⟨1, _⟩ => show win2_1.index t (1 : Fin 2) * 64 + 1 * k.val = k.val; omega
  · intro k q
    show V c main_arg7 (((cfg2.win 2).blk t).view.emb (ix2 k q)) = V c main_arg7 _
    refine congrArg (V c main_arg7) ?_
    funext a; apply Fin.ext
    match a with
    | ⟨0, _⟩ => show win2_2.index t (0 : Fin 2) * 64 + 1 * k.val = k.val; omega
    | ⟨1, _⟩ => show win2_2.index t (1 : Fin 2) * 10 + 1 * q.val = q.val; omega
  · intro q
    show V c main_v59 (((cfg2.win 3).blk t).view.emb (ix2 (0 : Fin 1) q)) = V c main_v59 _
    refine congrArg (V c main_v59) ?_
    funext a; apply Fin.ext
    match a with
    | ⟨0, _⟩ => show win2_3.index t (0 : Fin 2) * 1 + 1 * 0 = 0; omega
    | ⟨1, _⟩ => show win2_3.index t (1 : Fin 2) * 10 + 1 * q.val = q.val; omega
  · intro p q
    show V c main_v57 (((cfg2.win 4).blk t).view.emb (ix2 p q)) = V c main_v57 _
    refine congrArg (V c main_v57) ?_
    funext a; apply Fin.ext
    match a with
    | ⟨0, _⟩ => show win2_4.index t (0 : Fin 2) * 10000 + 1 * p.val = t.val * 10000 + p.val; omega
    | ⟨1, _⟩ => show win2_4.index t (1 : Fin 2) * 10 + 1 * q.val = q.val; omega
  · show win2_5.index t (0 : Fin 2) * 10000 + 1 * (j 0).val = t.val * 10000 + (j 0).val; omega
  · show win2_5.index t (1 : Fin 2) * 10 + 1 * (j 1).val = (j 1).val; omega

/-- An index of the output array is in point `t`'s block iff each coordinate is in the block's range on its axis. -/
theorem mem_blk (t : Fin cfg2.N) (i : S100000x10.Idx) :
    i ∈ ((cfg2.win 5).blk t).view.set ↔ ∀ a : Fin 2, win2_5.index t a * S10000x10.size a ≤ (i a).val ∧ (i a).val < win2_5.index t a * S10000x10.size a + S10000x10.size a := by
  show i ∈ ((View.whole main_v60).slice (win2_5.rect t)).set ↔ _
  rw [View.set_slice_whole, Rect.mem_set_unit]
  exact Iff.rfl

/-- Every index of the output array lies in some point's block: row r in block r / 10000. -/
theorem cover (i : S100000x10.Idx) : ∃ t : Fin cfg2.N, (cfg2.win 5).flush t = true ∧ i ∈ ((cfg2.win 5).blk t).view.set := by
  have hi0 : (i 0).val < 100000 := (i 0).isLt
  have hi1 : (i 1).val < 10 := (i 1).isLt
  let t : Fin cfg2.N := ⟨(i 0).val / 10000, by show (i 0).val / 10000 < 10; omega⟩
  obtain ⟨-, -, -, -, -, -, -, -, -, -, e50, e51⟩ := idx_facts t
  have htv : t.val = (i 0).val / 10000 := rfl
  refine ⟨t, flush2_5 t, ?_⟩
  rw [mem_blk]
  intro a
  match a with
  | ⟨0, _⟩ => show win2_5.index t (0 : Fin 2) * 10000 ≤ (i 0).val ∧ (i 0).val < win2_5.index t (0 : Fin 2) * 10000 + 10000; omega
  | ⟨1, _⟩ => show win2_5.index t (1 : Fin 2) * 10 ≤ (i 1).val ∧ (i 1).val < win2_5.index t (1 : Fin 2) * 10 + 10; omega

/-- After the launch the output array is the head applied to the arrays the launch found. -/
theorem array_eq (c : Dev nD) :
    (dat2 V c).arrAt 5 cfg2.N
      = GcnSpec.head (V c main_v56 : S100000x64.Idx → EReal) (V c main_v58 : S1x64.Idx → EReal) (V c main_arg7 : S64x10.Idx → EReal)
          (V c main_v59 : S1x10.Idx → EReal) (bitOf (V c main_v57 : S100000x10.Idx → BitVec 32)) fill :=
  (dat2 V c).arrAt_eq_of_cover 5 _ (fun t _ => flushed_eq V c t) cover

end Cert.KernelIdeal.Stage2

end
-- ==== Proof.RefStages.lean ====
/-
  The reference's dense stages are the specification's.

  The reference computes the first product by one whole contraction; before the second and third it adds the bias
  vector to every row (spread by two broadcasts), takes the maximum with a spread zero, and contracts with the weights;
  after the third it adds the offset vector to every row, flattens the [100000, 10] table to one axis (entry 10·r + c is
  entry (r, c)), flattens the mask the same way, and chooses between the table and a spread fill word.  Read entry by
  entry these are the plain product, the biased rectified product and the head of the specification, applied to the
  previous stage's array: a contraction's entry (p, c) is the sum over k of l (p, k) · r (k, c); a vector spread down the
  rows reads its entry of the column; a choice commutes with a relabelling of the entries.  The mask bit is stated as
  "the bit widened to a word is nonzero", which is the bit itself.
-/
import proofs.«117503_j20212116095331_1_alg».proof.Proof.Gen.ReferenceIdeal.Read
import proofs.«117503_j20212116095331_1_alg».proof.Proof.Spec
import proofs.«117503_j20212116095331_1_alg».proof.Proof.LibPlainDot
import proofs.«117503_j20212116095331_1_alg».proof.Proof.LibRowLayout

set_option maxRecDepth 16384

noncomputable section

namespace Cert.ReferenceIdeal.Stages

open Idealize.ShloMosaic Idealize.ShloMosaic.ValueIdx
open Cert.ReferenceIdeal Cert.ReferenceIdeal.Gen Cert.ReferenceIdeal.Read

/-- A choice between a value and a fixed alternative depends only on the bit and on the value. -/
theorem select_congr {α : Type} {c c' : BitVec 1} {a a' b : α} (hc : c = c') (ha : a = a') :
    Scalar.select c a b = Scalar.select c' a' b := by subst hc ha; rfl

/-- A bias vector viewed as a one-row array. -/
abbrev row64 (b : S64.Idx → EReal) : S1x64.Idx → EReal := shapeCast S1x64 b (by decide)
/-- An offset vector viewed as a one-row array. -/
abbrev row10 (o : S10.Idx → EReal) : S1x10.Idx → EReal := shapeCast S1x10 o (by decide)

theorem plain13 : LibPlainDot.Plain dot_S100000x128_S128x64_S100000x64_1_0_0_1_n_n := ⟨rfl, rfl, rfl, rfl, rfl, rfl⟩
theorem plain46 : LibPlainDot.Plain dot_S100000x64_S64x64_S100000x64_1_0_0_1_n_n := ⟨rfl, rfl, rfl, rfl, rfl, rfl⟩
theorem plain79 : LibPlainDot.Plain dot_S100000x64_S64x10_S100000x10_1_0_0_1_n_n := ⟨rfl, rfl, rfl, rfl, rfl, rfl⟩

/-- The first product. -/
theorem proj1 (x0 : S100000x128.Idx → EReal) (x3 : S128x64.Idx → EReal) :
    val_main_v13 (F := Ideal) x0 x3 = GcnSpec.mm x0 x3 := by
  funext i
  obtain ⟨p, q, rfl⟩ : ∃ (p : Fin 100000) (q : Fin 64), i = ix2 p q := ⟨i 0, i 1, eq_ix2 i⟩
  unfold val_main_v13
  simp only [Host.dotGeneral]
  exact plain13.dotGeneral_apply none _ x0 x3 p q

/-- The second stage: the biased rectified product of the first neighbourhood sum. -/
theorem proj2 (x0 : S100000x128.Idx → EReal) (x1 : S2x3200000.Idx → BitVec 32) (x3 : S128x64.Idx → EReal) (x4 : S64.Idx → EReal)
    (x5 : S64x64.Idx → EReal) :
    val_main_v46 (F := Ideal) x0 x1 x3 x4 x5 = GcnSpec.mm (GcnSpec.relu1 (val_main_v41 (F := Ideal) x0 x1 x3) (row64 x4)) x5 := by
  funext i
  obtain ⟨p, q, rfl⟩ : ∃ (p : Fin 100000) (q : Fin 64), i = ix2 p q := ⟨i 0, i 1, eq_ix2 i⟩
  unfold val_main_v46
  simp only [Host.dotGeneral]
  refine (plain46.dotGeneral_apply none _ _ x5 p q).trans ?_
  rw [GcnSpec.mm_apply]
  refine Finset.sum_congr rfl fun k _ => ?_
  refine congrArg (fun t : EReal => t * x5 (ix2 k q)) ?_
  have e : idx_main_v42 (idx_main_v43 (ix2 p k)) = ix1 k := funext fun a => Fin.ext (by match a with | ⟨0, _⟩ => rfl)
  unfold row64
  rw [val_main_v45_apply, val_main_v44_apply, val_main_v43_apply, val_main_v42_apply, val_main_call0_v0_apply, val_main_call0_cst_apply,
    GcnSpec.relu1_apply, LibRowLayout.shapeCast_b_1b_apply, e]
  show max (_ + _) (Ideal.ofBits .f32 0x00000000#32) = _
  rw [Ideal.ofBits_zero_f32]

/-- A [100000, 10] table flattened to one axis reads, at position j, the table's entry (j / 10, j % 10). -/
theorem flat_apply {α : Type} (y : S100000x10.Idx → α) (j : S1000000.Idx) :
    shapeCast S1000000 y shapeCasts_S100000x10_S1000000 j = y (idx_main_v83 j) :=
  shapeCast_apply y shapeCasts_S100000x10_S1000000 j (idx_main_v83 j)
    (by rewrite [Shape.rowMajor_val_two, Shape.rowMajor_val_one]; have h0 : (j 0).val < 1000000 := (j 0).isLt
        show ((j 0).val) / 10 * 10 + ((j 0).val) % 10 = (j 0).val; omega)

/-- The last stage: the head of the second neighbourhood sum, flattened. -/
theorem out (x0 : S100000x128.Idx → EReal) (x1 : S2x3200000.Idx → BitVec 32) (x2 : S100000x10.Idx → BitVec 1) (x3 : S128x64.Idx → EReal)
    (x4 : S64.Idx → EReal) (x5 : S64x64.Idx → EReal) (x6 : S64.Idx → EReal) (x7 : S64x10.Idx → EReal) (x8 : S10.Idx → EReal) :
    val_main_v85 (F := Ideal) x0 x1 x2 x3 x4 x5 x6 x7 x8
      = shapeCast S1000000
          (GcnSpec.head (val_main_v74 (F := Ideal) x0 x1 x3 x4 x5) (row64 x6) x7 (row10 x8)
            (fun i => IntOp.cmpi .ne ((x2 i).setWidth 32) 0#32) (Scalar.ofBits (F := Ideal) .f32 0xFF7FFFFF#32))
          shapeCasts_S100000x10_S1000000 := by
  funext j
  rw [val_main_v85_apply, val_main_v84_apply, val_main_v83_apply, val_main_call2_v0_apply, val_main_cst_15_apply, flat_apply]
  show Scalar.select (x2 (idx_main_v83 j)) _ _ = _
  generalize idx_main_v83 j = i
  obtain ⟨p, q, rfl⟩ : ∃ (p : Fin 100000) (q : Fin 10), i = ix2 p q := ⟨i 0, i 1, eq_ix2 i⟩
  rw [GcnSpec.head_apply]
  unfold row64 row10
  refine select_congr (GcnSpec.ne_zero_of_widened _).symm ?_
  have e8 : idx_main_v80 (idx_main_v81 (ix2 p q)) = ix1 q := funext fun a => Fin.ext (by match a with | ⟨0, _⟩ => rfl)
  rw [val_main_v82_apply, val_main_v81_apply, val_main_v80_apply, e8, LibRowLayout.shapeCast_b_1b_apply]
  refine congrArg (fun t : EReal => t + x8 (ix1 q)) ?_
  unfold val_main_v79
  simp only [Host.dotGeneral]
  refine (plain79.dotGeneral_apply none _ _ x7 p q).trans ?_
  refine Finset.sum_congr rfl fun k _ => ?_
  refine congrArg (fun t : EReal => t * x7 (ix2 k q)) ?_
  have e6 : idx_main_v75 (idx_main_v76 (ix2 p k)) = ix1 k := funext fun a => Fin.ext (by match a with | ⟨0, _⟩ => rfl)
  rw [val_main_v78_apply, val_main_v77_apply, val_main_v76_apply, val_main_v75_apply, val_main_call1_v0_apply, val_main_call1_cst_apply,
    LibRowLayout.shapeCast_b_1b_apply, e6]
  show max (_ + _) (Ideal.ofBits .f32 0x00000000#32) = _
  rw [Ideal.ofBits_zero_f32]

end Cert.ReferenceIdeal.Stages

end
-- ==== Proof.LibKeeps.lean ====
/-
  A buffer that no operation of a stretch writes keeps its contents across the stretch.

  The contents after a list of host operations are a fold: each operation replaces the one buffer it writes. So for a
  literal list and a literal buffer the statement "the fold at this buffer is what was there" comes down to one
  inequality of buffer names per operation, each decided by evaluation. `keeps_host ops` closes a goal
  `after ops V (devRef b) = V (devRef b)` that way, `ops` being the name of the list's definition.
-/
import Idealize.ShloMosaic.Lib.StableHlo.Run

open Idealize.ShloMosaic in
/-- Closes `StableHlo.after ops V (Proc.devRef .tc b) = V (Proc.devRef .tc b)` for the literal list of host operations
    named `ops` and a literal buffer `b` none of them writes. -/
macro "keeps_host " ops:ident : tactic =>
  `(tactic| exact StableHlo.after_of_forall_not_mem _ _ (List.forall_iff_forall_mem.mp (by
      simp only [$ops:ident, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))
-- ==== Proof.Walk.lean ====
/-
  The contents of the buffers the program reads, at each of its segment boundaries, and of the result buffer at the
  end.

  The program: a stretch of host operations that builds the edge lists with self loops, the inverse square roots of the
  degrees and the per-edge norms; the first launch (the projection); a stretch that gathers the projected rows along the
  edges, scales them by the norms and sums them into their target rows; the second launch (bias, rectifier, product);
  the same neighbourhood sum again; the third launch (the head, with the mask widened to words); and the flattening of
  the result.  A stretch changes only the buffers its operations write and a launch only its output array, so a buffer
  written early (the edge lists, the norms, every argument) still holds at a later boundary what it held when written.
  Walking the boundaries in order, each buffer a later segment reads is identified with a stage of the reference's own
  computation of the same arguments: the host operations are the same operations on both sides, and each launch's output
  array is the matching dense stage of the array it found (the three launch modules and the reference's stages).  The
  reference recomputes the per-edge norms before its second neighbourhood sum; they are the same function of the edge
  lists.  At the end the result buffer holds the reference's last stage.
-/
import proofs.«117503_j20212116095331_1_alg».proof.Proof.Gen.KernelIdeal.Frame
import proofs.«117503_j20212116095331_1_alg».proof.Proof.Gen.ReferenceIdeal.Read
import proofs.«117503_j20212116095331_1_alg».proof.Proof.Region0
import proofs.«117503_j20212116095331_1_alg».proof.Proof.Region1
import proofs.«117503_j20212116095331_1_alg».proof.Proof.Region2
import proofs.«117503_j20212116095331_1_alg».proof.Proof.RefStages
import proofs.«117503_j20212116095331_1_alg».proof.Proof.LibKeeps

set_option maxRecDepth 16384

noncomputable section

namespace Cert.KernelIdeal.Walk

open Idealize.ShloMosaic Idealize.ShloMosaic.TcCoe Idealize.SL.Sem
open Cert.KernelIdeal Cert.KernelIdeal.Gen
open Cert.ReferenceIdeal.Read
open Cert.ReferenceIdeal.Stages (row64 row10)

variable (m : (ℓ : Loc nD τ sig) → Buf (Elt Ideal) ℓ) (ρ : Dev nD → PrngReg) (c : Dev nD)

set_option quotPrecheck false

local notation "a0" => (m ((c : Thread nD τ).loc main_arg0) : S100000x128.Idx → EReal)
local notation "a1" => (m ((c : Thread nD τ).loc main_arg1) : S2x3200000.Idx → BitVec 32)
local notation "a2" => (m ((c : Thread nD τ).loc main_arg2) : S100000x10.Idx → BitVec 1)
local notation "a3" => (m ((c : Thread nD τ).loc main_arg3) : S128x64.Idx → EReal)
local notation "a4" => (m ((c : Thread nD τ).loc main_arg4) : S64.Idx → EReal)
local notation "a5" => (m ((c : Thread nD τ).loc main_arg5) : S64x64.Idx → EReal)
local notation "a6" => (m ((c : Thread nD τ).loc main_arg6) : S64.Idx → EReal)
local notation "a7" => (m ((c : Thread nD τ).loc main_arg7) : S64x10.Idx → EReal)
local notation "a8" => (m ((c : Thread nD τ).loc main_arg8) : S10.Idx → EReal)

/-! ## After the first stretch: the arguments, the edge lists with self loops, the per-edge norms -/

theorem W1_arg0 : W1 m ρ c (Proc.devRef .tc main_arg0) = m ((c : Thread nD τ).loc main_arg0) := by
  have h : StableHlo.after hostOps0 (W0 m ρ c) (Proc.devRef .tc main_arg0) = W0 m ρ c (Proc.devRef .tc main_arg0) := by keeps_host hostOps0
  exact h.trans rfl
theorem W1_arg2 : W1 m ρ c (Proc.devRef .tc main_arg2) = m ((c : Thread nD τ).loc main_arg2) := by
  have h : StableHlo.after hostOps0 (W0 m ρ c) (Proc.devRef .tc main_arg2) = W0 m ρ c (Proc.devRef .tc main_arg2) := by keeps_host hostOps0
  exact h.trans rfl
theorem W1_arg3 : W1 m ρ c (Proc.devRef .tc main_arg3) = m ((c : Thread nD τ).loc main_arg3) := by
  have h : StableHlo.after hostOps0 (W0 m ρ c) (Proc.devRef .tc main_arg3) = W0 m ρ c (Proc.devRef .tc main_arg3) := by keeps_host hostOps0
  exact h.trans rfl
theorem W1_arg4 : W1 m ρ c (Proc.devRef .tc main_arg4) = m ((c : Thread nD τ).loc main_arg4) := by
  have h : StableHlo.after hostOps0 (W0 m ρ c) (Proc.devRef .tc main_arg4) = W0 m ρ c (Proc.devRef .tc main_arg4) := by keeps_host hostOps0
  exact h.trans rfl
theorem W1_arg5 : W1 m ρ c (Proc.devRef .tc main_arg5) = m ((c : Thread nD τ).loc main_arg5) := by
  have h : StableHlo.after hostOps0 (W0 m ρ c) (Proc.devRef .tc main_arg5) = W0 m ρ c (Proc.devRef .tc main_arg5) := by keeps_host hostOps0
  exact h.trans rfl
theorem W1_arg6 : W1 m ρ c (Proc.devRef .tc main_arg6) = m ((c : Thread nD τ).loc main_arg6) := by
  have h : StableHlo.after hostOps0 (W0 m ρ c) (Proc.devRef .tc main_arg6) = W0 m ρ c (Proc.devRef .tc main_arg6) := by keeps_host hostOps0
  exact h.trans rfl
theorem W1_arg7 : W1 m ρ c (Proc.devRef .tc main_arg7) = m ((c : Thread nD τ).loc main_arg7) := by
  have h : StableHlo.after hostOps0 (W0 m ρ c) (Proc.devRef .tc main_arg7) = W0 m ρ c (Proc.devRef .tc main_arg7) := by keeps_host hostOps0
  exact h.trans rfl
theorem W1_arg8 : W1 m ρ c (Proc.devRef .tc main_arg8) = m ((c : Thread nD τ).loc main_arg8) := by
  have h : StableHlo.after hostOps0 (W0 m ρ c) (Proc.devRef .tc main_arg8) = W0 m ρ c (Proc.devRef .tc main_arg8) := by keeps_host hostOps0
  exact h.trans rfl

/-- The source ends of the edges, self loops appended. -/
theorem W1_v3 : W1 m ρ c (Proc.devRef .tc main_v3) = val_main_v3 (F := Ideal) a1 := by
  show StableHlo.after hostOps0 (W0 m ρ c) (Proc.devRef .tc main_v3) = _
  after_results_simp
  unfold val_main_v3 val_main_v2 val_main_v1 val_main_v0
  rfl

/-- The target ends of the edges, self loops appended. -/
theorem W1_v6 : W1 m ρ c (Proc.devRef .tc main_v6) = val_main_v6 (F := Ideal) a1 := by
  show StableHlo.after hostOps0 (W0 m ρ c) (Proc.devRef .tc main_v6) = _
  after_results_simp
  unfold val_main_v6 val_main_v5 val_main_v4 val_main_v0
  rfl

/-- The per-edge norms: the product of the two ends' inverse square roots of degree. -/
theorem W1_v27 : W1 m ρ c (Proc.devRef .tc main_v27) = val_main_v28 (F := Ideal) a1 := by
  show StableHlo.after hostOps0 (W0 m ρ c) (Proc.devRef .tc main_v27) = _
  after_results_simp
  unfold val_main_v28 val_main_v27 val_main_v26 val_main_v25 val_main_v24 val_main_v23 val_main_c_4 val_main_v22 val_main_v21 val_main_c_3
    val_main_v20 val_main_v19 val_main_v18 val_main_v17 val_main_v16 val_main_c_2 val_main_v15 val_main_v14 val_main_c
    val_main_v12 val_main_v11 val_main_cst_1 val_main_v10 val_main_v9 val_main_v8 val_main_cst_0 val_main_v7 val_main_cst
    val_main_v6 val_main_v5 val_main_v4 val_main_v3 val_main_v2 val_main_v1 val_main_v0
  rfl

/-! ## After the first launch: its output is the projection; everything else is as before -/

theorem W2_v28 : W2 m ρ c (Proc.devRef .tc main_v28) = val_main_v13 (F := Ideal) a0 a3 := by
  refine (W2_arr m ρ c 2).trans ((Stage0.array_eq (V1 m ρ) c).trans ?_)
  rw [Cert.ReferenceIdeal.Stages.proj1]
  show GcnSpec.mm (W1 m ρ c (Proc.devRef .tc main_arg0) : S100000x128.Idx → EReal) (W1 m ρ c (Proc.devRef .tc main_arg3) : S128x64.Idx → EReal) = _
  rw [W1_arg0, W1_arg3]

theorem W2_v3 : W2 m ρ c (Proc.devRef .tc main_v3) = val_main_v3 (F := Ideal) a1 := (W2_of_ne m ρ c main_v3 (by decide)).trans (W1_v3 m ρ c)
theorem W2_v6 : W2 m ρ c (Proc.devRef .tc main_v6) = val_main_v6 (F := Ideal) a1 := (W2_of_ne m ρ c main_v6 (by decide)).trans (W1_v6 m ρ c)
theorem W2_v27 : W2 m ρ c (Proc.devRef .tc main_v27) = val_main_v28 (F := Ideal) a1 := (W2_of_ne m ρ c main_v27 (by decide)).trans (W1_v27 m ρ c)
theorem W2_arg2 : W2 m ρ c (Proc.devRef .tc main_arg2) = m ((c : Thread nD τ).loc main_arg2) := (W2_of_ne m ρ c main_arg2 (by decide)).trans (W1_arg2 m ρ c)
theorem W2_arg4 : W2 m ρ c (Proc.devRef .tc main_arg4) = m ((c : Thread nD τ).loc main_arg4) := (W2_of_ne m ρ c main_arg4 (by decide)).trans (W1_arg4 m ρ c)
theorem W2_arg5 : W2 m ρ c (Proc.devRef .tc main_arg5) = m ((c : Thread nD τ).loc main_arg5) := (W2_of_ne m ρ c main_arg5 (by decide)).trans (W1_arg5 m ρ c)
theorem W2_arg6 : W2 m ρ c (Proc.devRef .tc main_arg6) = m ((c : Thread nD τ).loc main_arg6) := (W2_of_ne m ρ c main_arg6 (by decide)).trans (W1_arg6 m ρ c)
theorem W2_arg7 : W2 m ρ c (Proc.devRef .tc main_arg7) = m ((c : Thread nD τ).loc main_arg7) := (W2_of_ne m ρ c main_arg7 (by decide)).trans (W1_arg7 m ρ c)
theorem W2_arg8 : W2 m ρ c (Proc.devRef .tc main_arg8) = m ((c : Thread nD τ).loc main_arg8) := (W2_of_ne m ρ c main_arg8 (by decide)).trans (W1_arg8 m ρ c)

/-! ## After the second stretch: the first neighbourhood sum and the first bias as a one-row array -/

/-- The projected rows gathered along the edges, scaled by the norms, summed into their target rows. -/
theorem W3_v41 : W3 m ρ c (Proc.devRef .tc main_v41) = val_main_v41 (F := Ideal) a0 a1 a3 := by
  show StableHlo.after hostOps1 (W2 m ρ c) (Proc.devRef .tc main_v41) = _
  after_results_simp
  rw [W2_v28, W2_v3, W2_v6, W2_v27]
  unfold val_main_v41 val_main_v40 val_main_v39 val_main_cst_7 val_main_v38 val_main_v37 val_main_v36 val_main_v35 val_main_v34 val_main_v33
    val_main_v32 val_main_v31 val_main_c_6 val_main_v30 val_main_v29 val_main_c_5
  rfl

theorem W3_v42 : W3 m ρ c (Proc.devRef .tc main_v42) = row64 a4 := by
  show StableHlo.after hostOps1 (W2 m ρ c) (Proc.devRef .tc main_v42) = _
  after_results_simp
  rw [W2_arg4]
  rfl

theorem W3_arg5 : W3 m ρ c (Proc.devRef .tc main_arg5) = m ((c : Thread nD τ).loc main_arg5) := by
  have h : StableHlo.after hostOps1 (W2 m ρ c) (Proc.devRef .tc main_arg5) = W2 m ρ c (Proc.devRef .tc main_arg5) := by keeps_host hostOps1
  exact h.trans (W2_arg5 m ρ c)
theorem W3_v3 : W3 m ρ c (Proc.devRef .tc main_v3) = val_main_v3 (F := Ideal) a1 := by
  have h : StableHlo.after hostOps1 (W2 m ρ c) (Proc.devRef .tc main_v3) = W2 m ρ c (Proc.devRef .tc main_v3) := by keeps_host hostOps1
  exact h.trans (W2_v3 m ρ c)
theorem W3_v6 : W3 m ρ c (Proc.devRef .tc main_v6) = val_main_v6 (F := Ideal) a1 := by
  have h : StableHlo.after hostOps1 (W2 m ρ c) (Proc.devRef .tc main_v6) = W2 m ρ c (Proc.devRef .tc main_v6) := by keeps_host hostOps1
  exact h.trans (W2_v6 m ρ c)
theorem W3_v27 : W3 m ρ c (Proc.devRef .tc main_v27) = val_main_v28 (F := Ideal) a1 := by
  have h : StableHlo.after hostOps1 (W2 m ρ c) (Proc.devRef .tc main_v27) = W2 m ρ c (Proc.devRef .tc main_v27) := by keeps_host hostOps1
  exact h.trans (W2_v27 m ρ c)
theorem W3_arg2 : W3 m ρ c (Proc.devRef .tc main_arg2) = m ((c : Thread nD τ).loc main_arg2) := by
  have h : StableHlo.after hostOps1 (W2 m ρ c) (Proc.devRef .tc main_arg2) = W2 m ρ c (Proc.devRef .tc main_arg2) := by keeps_host hostOps1
  exact h.trans (W2_arg2 m ρ c)
theorem W3_arg6 : W3 m ρ c (Proc.devRef .tc main_arg6) = m ((c : Thread nD τ).loc main_arg6) := by
  have h : StableHlo.after hostOps1 (W2 m ρ c) (Proc.devRef .tc main_arg6) = W2 m ρ c (Proc.devRef .tc main_arg6) := by keeps_host hostOps1
  exact h.trans (W2_arg6 m ρ c)
theorem W3_arg7 : W3 m ρ c (Proc.devRef .tc main_arg7) = m ((c : Thread nD τ).loc main_arg7) := by
  have h : StableHlo.after hostOps1 (W2 m ρ c) (Proc.devRef .tc main_arg7) = W2 m ρ c (Proc.devRef .tc main_arg7) := by keeps_host hostOps1
  exact h.trans (W2_arg7 m ρ c)
theorem W3_arg8 : W3 m ρ c (Proc.devRef .tc main_arg8) = m ((c : Thread nD τ).loc main_arg8) := by
  have h : StableHlo.after hostOps1 (W2 m ρ c) (Proc.devRef .tc main_arg8) = W2 m ρ c (Proc.devRef .tc main_arg8) := by keeps_host hostOps1
  exact h.trans (W2_arg8 m ρ c)

/-! ## After the second launch: its output is the reference's second product -/

theorem W4_v43 : W4 m ρ c (Proc.devRef .tc main_v43) = val_main_v46 (F := Ideal) a0 a1 a3 a4 a5 := by
  refine (W4_arr m ρ c 3).trans ((Stage1.array_eq (V3 m ρ) c).trans ?_)
  rw [Cert.ReferenceIdeal.Stages.proj2]
  show GcnSpec.mm (GcnSpec.relu1 (W3 m ρ c (Proc.devRef .tc main_v41) : S100000x64.Idx → EReal) (W3 m ρ c (Proc.devRef .tc main_v42) : S1x64.Idx → EReal))
      (W3 m ρ c (Proc.devRef .tc main_arg5) : S64x64.Idx → EReal) = _
  rw [W3_v41, W3_v42, W3_arg5]

theorem W4_v3 : W4 m ρ c (Proc.devRef .tc main_v3) = val_main_v3 (F := Ideal) a1 := (W4_of_ne m ρ c main_v3 (by decide)).trans (W3_v3 m ρ c)
theorem W4_v6 : W4 m ρ c (Proc.devRef .tc main_v6) = val_main_v6 (F := Ideal) a1 := (W4_of_ne m ρ c main_v6 (by decide)).trans (W3_v6 m ρ c)
theorem W4_v27 : W4 m ρ c (Proc.devRef .tc main_v27) = val_main_v28 (F := Ideal) a1 := (W4_of_ne m ρ c main_v27 (by decide)).trans (W3_v27 m ρ c)
theorem W4_arg2 : W4 m ρ c (Proc.devRef .tc main_arg2) = m ((c : Thread nD τ).loc main_arg2) := (W4_of_ne m ρ c main_arg2 (by decide)).trans (W3_arg2 m ρ c)
theorem W4_arg6 : W4 m ρ c (Proc.devRef .tc main_arg6) = m ((c : Thread nD τ).loc main_arg6) := (W4_of_ne m ρ c main_arg6 (by decide)).trans (W3_arg6 m ρ c)
theorem W4_arg7 : W4 m ρ c (Proc.devRef .tc main_arg7) = m ((c : Thread nD τ).loc main_arg7) := (W4_of_ne m ρ c main_arg7 (by decide)).trans (W3_arg7 m ρ c)
theorem W4_arg8 : W4 m ρ c (Proc.devRef .tc main_arg8) = m ((c : Thread nD τ).loc main_arg8) := (W4_of_ne m ρ c main_arg8 (by decide)).trans (W3_arg8 m ρ c)

/-! ## After the third stretch: the second neighbourhood sum, the small operands as one-row arrays, the mask as words -/

/-- The reference computes the per-edge norms a second time; it is the same function of the edge lists. -/
theorem norm_again (x1 : S2x3200000.Idx → BitVec 32) : val_main_v61 (F := Ideal) x1 = val_main_v28 (F := Ideal) x1 := by
  unfold val_main_v61 val_main_v60 val_main_v59 val_main_v58 val_main_v57 val_main_v56 val_main_c_11 val_main_v55 val_main_v54 val_main_c_10
    val_main_v53 val_main_v52 val_main_v51 val_main_v50 val_main_v49 val_main_c_9 val_main_v48 val_main_v47 val_main_c_8
    val_main_v28 val_main_v27 val_main_v26 val_main_v25 val_main_v24 val_main_v23 val_main_c_4 val_main_v22 val_main_v21 val_main_c_3
    val_main_v20 val_main_v19 val_main_v18 val_main_v17 val_main_v16 val_main_c_2 val_main_v15 val_main_v14 val_main_c
  rfl

theorem W5_v56 : W5 m ρ c (Proc.devRef .tc main_v56) = val_main_v74 (F := Ideal) a0 a1 a3 a4 a5 := by
  show StableHlo.after hostOps2 (W4 m ρ c) (Proc.devRef .tc main_v56) = _
  after_results_simp
  rw [W4_v43, W4_v3, W4_v6, W4_v27, ← norm_again]
  unfold val_main_v74 val_main_v73 val_main_v72 val_main_cst_14 val_main_v71 val_main_v70 val_main_v69 val_main_v68 val_main_v67 val_main_v66
    val_main_v65 val_main_v64 val_main_c_13 val_main_v63 val_main_v62 val_main_c_12
  rfl

theorem W5_v58 : W5 m ρ c (Proc.devRef .tc main_v58) = row64 a6 := by
  show StableHlo.after hostOps2 (W4 m ρ c) (Proc.devRef .tc main_v58) = _
  after_results_simp
  rw [W4_arg6]
  rfl

theorem W5_v59 : W5 m ρ c (Proc.devRef .tc main_v59) = row10 a8 := by
  show StableHlo.after hostOps2 (W4 m ρ c) (Proc.devRef .tc main_v59) = _
  after_results_simp
  rw [W4_arg8]
  rfl

theorem W5_v57 : W5 m ρ c (Proc.devRef .tc main_v57) = (fun i => (a2 i).setWidth 32 : S100000x10.Idx → BitVec 32) := by
  show StableHlo.after hostOps2 (W4 m ρ c) (Proc.devRef .tc main_v57) = _
  after_results_simp
  rw [W4_arg2]
  rfl

theorem W5_arg7 : W5 m ρ c (Proc.devRef .tc main_arg7) = m ((c : Thread nD τ).loc main_arg7) := by
  have h : StableHlo.after hostOps2 (W4 m ρ c) (Proc.devRef .tc main_arg7) = W4 m ρ c (Proc.devRef .tc main_arg7) := by keeps_host hostOps2
  exact h.trans (W4_arg7 m ρ c)

/-! ## After the third launch and the flattening: the result -/

theorem W6_v60 : W6 m ρ c (Proc.devRef .tc main_v60)
    = GcnSpec.head (val_main_v74 (F := Ideal) a0 a1 a3 a4 a5) (row64 a6) a7 (row10 a8)
        (fun i => IntOp.cmpi .ne ((a2 i).setWidth 32) 0#32) (Scalar.ofBits (F := Ideal) .f32 0xFF7FFFFF#32) := by
  refine (W6_arr m ρ c 5).trans ((Stage2.array_eq (V5 m ρ) c).trans ?_)
  show GcnSpec.head (W5 m ρ c (Proc.devRef .tc main_v56) : S100000x64.Idx → EReal) (W5 m ρ c (Proc.devRef .tc main_v58) : S1x64.Idx → EReal)
      (W5 m ρ c (Proc.devRef .tc main_arg7) : S64x10.Idx → EReal) (W5 m ρ c (Proc.devRef .tc main_v59) : S1x10.Idx → EReal)
      (Stage2.bitOf (W5 m ρ c (Proc.devRef .tc main_v57) : S100000x10.Idx → BitVec 32)) Stage2.fill = _
  rw [W5_v56, W5_v58, W5_arg7, W5_v59, W5_v57]

/-- The result buffer at the last boundary holds the reference's last stage of the launch contents of the arguments. -/
theorem result_eq : W7 m ρ c (Proc.devRef .tc main_v61) = val_main_v85 (F := Ideal) a0 a1 a2 a3 a4 a5 a6 a7 a8 := by
  rw [Cert.ReferenceIdeal.Stages.out]
  show StableHlo.after hostOps3 (W6 m ρ c) (Proc.devRef .tc main_v61) = _
  after_results_simp
  rw [W6_v60]
  rfl

end Cert.KernelIdeal.Walk

end
-- ==== Proof.lean ====
/-
  A two-layer graph-convolution network with a masked ten-way head, in two programs: one that runs its three dense
  row-wise stages as launches over ten blocks of 10000 node rows each, and the plain reference that runs them as whole
  contractions.  Both are read at the extended reals, where a change of float format is the identity.

  Both programs build from the edge list the same source and target lists with a self loop per node, the degrees by a
  sum over the targets, the degrees to the power −1/2, and the per-edge norm: the product of that power at the two ends.
  A neighbourhood sum gathers the rows of an array along the sources, scales each by its edge's norm, and adds them
  into their target rows.  The network is

      h₁ = x · W₁,   a₁ = sum over neighbours of h₁,
      h₂ = max(a₁ + b₁, 0) · W₂,   a₂ = sum over neighbours of h₂,
      out = where(mask, max(a₂ + b₂, 0) · W_h + b_h, fill),   flattened to one axis.

  The neighbourhood sums are the same host operations in both programs and are never opened: each is a function of the
  array it is applied to and of the edge lists.  What differs is how the dense stages are computed.  In the blocked
  program a launch computes, at grid point t, rows 10000·t … 10000·t + 9999 of the stage from the same rows of its
  input; each entry of a stage depends on one input row only, the ten blocks tile the output, so the output array is the
  stage of the whole input (the three launch modules).  A product that accumulates into zero and the host's contraction
  are the same sum over the contracted axis; a bias row spread over a block and a bias vector spread by two broadcasts
  read the same entry; the mask widened to words and tested against zero is the mask; choosing before or after the
  flattening is the same choice; and both programs fill with the same word, which is never evaluated.  No step needs an
  entry to be finite: the two results are equal as extended reals for every input, so the precondition is not used.

  The three frames: the blocked programs' are the generated frame certificates; the reference's is its run with the
  result dropped.  Nothing was rewritten between the two blocked programs, so there is nothing to preserve.  For the
  value claim the blocked program's run is taken with the result buffer kept (RunResult), the result buffer's final
  contents are walked back through the segment boundaries to the reference's last stage of the arguments (Walk), and
  the reference's run ends at that same stage of arguments that agree.
-/
import proofs.«117503_j20212116095331_1_alg».proof.Defs
import proofs.«117503_j20212116095331_1_alg».proof.Proof.Gen.Kernel
import proofs.«117503_j20212116095331_1_alg».proof.Proof.Gen.Kernel.Frame
import proofs.«117503_j20212116095331_1_alg».proof.Proof.Gen.KernelIdeal
import proofs.«117503_j20212116095331_1_alg».proof.Proof.Gen.KernelIdeal.Frame
import proofs.«117503_j20212116095331_1_alg».proof.Proof.Gen.ReferenceIdeal
import proofs.«117503_j20212116095331_1_alg».proof.Proof.Gen.ReferenceIdeal.Run
import proofs.«117503_j20212116095331_1_alg».proof.Proof.Gen.ReferenceIdeal.Read
import proofs.«117503_j20212116095331_1_alg».proof.Proof.Gen.Pre_finite_inputs
import proofs.«117503_j20212116095331_1_alg».proof.Proof.RunResult
import proofs.«117503_j20212116095331_1_alg».proof.Proof.Walk

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten between the two blocked programs. -/
theorem preserves : Cert.preserves_Kernel_KernelIdeal := trivial

/-- Both programs end with the reference's last stage of the arguments in their result buffers. -/
theorem algebraic : Cert.algebraic_KernelIdeal_ReferenceIdeal := by
  intro m ρ m' ρ' _ hagree
  refine ⟨fun c => Cert.KernelIdeal.Gen.W7 m ρ c (Proc.devRef .tc Cert.KernelIdeal.main_v61), Cert.KernelIdeal.Gen.run_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v85_eq, h0, h1, h2, h3, h4, h5, h6, h7, h8]
  exact (Cert.KernelIdeal.Walk.result_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
